-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program, run to its end, with its RESULT read.

  The program is a chain of eight segments: three stretches of host operations (the edge list with self loops, the
  degrees and the symmetric normalisation), the first row-blocked matrix product, two stretches (gather, scale,
  scatter-add, bias, rectifier), the second row-blocked matrix product, and a last stretch (gather, scale,
  scatter-add, bias). The contents of every buffer at each boundary are a fold from the launch memory:
  `W0` at launch, `W1 … W3` after the first three stretches, `W4` after the first product (its output array
  at what the ten write-backs leave, everything else untouched), `W5`, `W6`, then `W7` after the second product and
  `W8` at the return.

  Here: every weakly fair execution terminates, nothing faults, the six argument arrays end as launched, and the
  result array ends holding `W8` at its buffer. What `W8` holds there, as a function of the arguments, is read
  off the fold in the modules that follow.
-/
import proofs.«178943_j10264971837865_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which unfolds
-- plain definitions in a metavariable's type
set_option backward.isDefEq.respectTransparency.types false in
/-- From any memory with zero counters, every weakly fair execution of the program terminates without a fault; the
    result array ends at the last boundary's contents `W8` and the six arguments end as launched. The launch over
    the eight segments ends in a thread state that holds every unscoped buffer at `W8`; reading that state
    against the final memory gives each buffer named in the post. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.ProductBlocks.lean ====
/-
  The two matrix products of the kernel, from blocks to arrays.

  Each product is launched over ten grid points; point `t` loads rows `10000·t … 10000·t + 9999` of the left array and
  the whole weight array, multiplies them on the matrix unit (operands rounded to bf16, f32 accumulation from zero) and
  stores the [10000, C] result as block `t` of the output. Over the extended reals the rounding is the identity and the
  accumulation from zero is the plain sum, so block `t` of the output is rows `10000·t …` of ONE whole-array function: the
  product of the two arrays, entry (r, c) = Σₖ a(r, k) · w(k, c). The ten blocks tile the output, so after the
  region the output array IS that product — stated for any contents `V` the region is entered with.
-/
import proofs.«178943_j10264971837865_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

/-! ## Product 0: the node features [100000, 128] against the first weights [128, 64], in ten blocks of 10000 rows -/

namespace Cert.KernelIdeal.Product0

open Cert.KernelIdeal Cert.KernelIdeal.Gen
open Idealize.ShloMosaic Idealize.ShloMosaic.TcCoe Idealize.SL.Sem
open Idealize.ShloMosaic.Pipeline (Dat)

/-- The operand indices of entry `i` of the whole product at lane `k`: row `i 0` of the left array, column `i 1` of the
    right one. -/
abbrev rowAt (i : S100000x64.Idx) (k : Fin 128) : S100000x128.Idx := fun a => match a with
  | ⟨0, _⟩ => ⟨(i 0).val, (i 0).isLt⟩
  | ⟨1, _⟩ => ⟨k.val, k.isLt⟩
abbrev colAt (i : S100000x64.Idx) (k : Fin 128) : S128x64.Idx := fun a => match a with
  | ⟨0, _⟩ => ⟨k.val, k.isLt⟩
  | ⟨1, _⟩ => ⟨(i 1).val, (i 1).isLt⟩
/-- The same inside one block of 10000 rows. -/
abbrev rowIn (j : S10000x64.Idx) (k : Fin 128) : S10000x128.Idx := fun a => match a with
  | ⟨0, _⟩ => ⟨(j 0).val, (j 0).isLt⟩
  | ⟨1, _⟩ => ⟨k.val, k.isLt⟩
abbrev colIn (j : S10000x64.Idx) (k : Fin 128) : S128x64.Idx := fun a => match a with
  | ⟨0, _⟩ => ⟨k.val, k.isLt⟩
  | ⟨1, _⟩ => ⟨(j 1).val, (j 1).isLt⟩

/-- THE WHOLE PRODUCT of a [100000, 128] array with a [128, 64] array over the extended reals: entry (r, c) is the sum
    over the 128 lanes of `a (r, k) · w (k, c)`. -/
def whole (a : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, a (rowAt i k) * w (colAt i k)

/-! ### One block's payload at an entry -/

theorem lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block the body stores, at entry `j`: rounding the operands to bf16 is the identity on the extended reals and the
    accumulator is the zero splat, so the matrix unit's contraction is the plain sum over the 128 lanes of the
    loaded row block against the loaded weights. -/
theorem payload_apply (x0 : Vec Ideal S10000x128 .f32) (x1 : Vec Ideal S128x64 .f32) (j : S10000x64.Idx) :
    k0_pay1 (F := Ideal) x0 x1 j = ∑ k : Fin 128, x0 (rowIn j k) * x1 (colIn j k) := by
  unfold k0_pay1
  show FloatOps.matmul dot_S10000x128_S128x64_S10000x64_1_0_0_1_n_n none (truncf (F := Ideal) .bf16 x0 bitsLt_bf16_f32) (truncf (F := Ideal) .bf16 x1 bitsLt_bf16_f32) (constant (F := Ideal) S10000x64 .f32 0x00000000#32) j = _
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = rowIn j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = colIn j k := funext fun a => Fin.ext (by
    match a with
    | ⟨0, _⟩ => exact (rhs_0 _ _).trans hk
    | ⟨1, _⟩ => exact rhs_1 _ _)
  rw [el, er]
  rfl

/-! ### From the ten row blocks to the array -/

theorem zero_offsets : (![0, 0] : Fin 2 → Nat) = fun _ => 0 := funext fun a => by fin_cases a <;> rfl

/-- The index maps over the ten grid points: the row-block windows (input 0 and the output) sit at block `t` of axis 0 and
    block 0 of axis 1; the weights' window is the whole array at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- WHAT POINT `t` WRITES BACK is block `t` of the whole product of the two arrays the region finds: rows
    `10000·t … 10000·t + 9999` of the left array are exactly the rows the point's input block holds, and the weights' block is
    the whole weight array. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := index_facts t
  funext j
  show k0_pay1 (iblk0 V c 0 t) (iblk0 V c 1 t) j = whole (V c main_arg0) (V c main_arg2) (((cfg0.win 2).blk t).view.emb j)
  refine (payload_apply (iblk0 V c 0 t) (iblk0 V c 1 t) j).trans ?_
  unfold whole
  refine Finset.sum_congr rfl fun k _ => ?_
  have h0 : ((cfg0.win 0).blk t).view.emb (rowIn j k) = rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (colIn j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have hA : iblk0 V c 0 t (rowIn j k) = V c main_arg0 (rowAt (((cfg0.win 2).blk t).view.emb j) k) := by
    show V c main_arg0 (((cfg0.win 0).blk t).view.emb (rowIn j k)) = _
    rw [h0]
  have hB : iblk0 V c 1 t (colIn j k) = V c main_arg2 (colAt (((cfg0.win 2).blk t).view.emb j) k) := by
    show V c main_arg2 (((cfg0.win 1).blk t).view.emb (colIn j k)) = _
    rw [h1]
  rw [hA, hB]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the output: row `r` lies in block `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the region: the whole product of the two arrays the region finds. -/
theorem array_eq (c : Dev nD) : (dat0 V c).arrAt 2 cfg0.N = whole (V c main_arg0) (V c main_arg2) :=
  (dat0 V c).arrAt_eq_of_cover 2 _ (fun t _ => flushed_eq V c t) covered

end

end Cert.KernelIdeal.Product0

/-! ## Product 1: the hidden features [100000, 64] against the second weights [64, 32], in ten blocks of 10000 rows -/

namespace Cert.KernelIdeal.Product1

open Cert.KernelIdeal Cert.KernelIdeal.Gen
open Idealize.ShloMosaic Idealize.ShloMosaic.TcCoe Idealize.SL.Sem
open Idealize.ShloMosaic.Pipeline (Dat)

/-- The operand indices of entry `i` of the whole product at lane `k`: row `i 0` of the left array, column `i 1` of the
    right one. -/
abbrev rowAt (i : S100000x32.Idx) (k : Fin 64) : S100000x64.Idx := fun a => match a with
  | ⟨0, _⟩ => ⟨(i 0).val, (i 0).isLt⟩
  | ⟨1, _⟩ => ⟨k.val, k.isLt⟩
abbrev colAt (i : S100000x32.Idx) (k : Fin 64) : S64x32.Idx := fun a => match a with
  | ⟨0, _⟩ => ⟨k.val, k.isLt⟩
  | ⟨1, _⟩ => ⟨(i 1).val, (i 1).isLt⟩
/-- The same inside one block of 10000 rows. -/
abbrev rowIn (j : S10000x32.Idx) (k : Fin 64) : S10000x64.Idx := fun a => match a with
  | ⟨0, _⟩ => ⟨(j 0).val, (j 0).isLt⟩
  | ⟨1, _⟩ => ⟨k.val, k.isLt⟩
abbrev colIn (j : S10000x32.Idx) (k : Fin 64) : S64x32.Idx := fun a => match a with
  | ⟨0, _⟩ => ⟨k.val, k.isLt⟩
  | ⟨1, _⟩ => ⟨(j 1).val, (j 1).isLt⟩

/-- THE WHOLE PRODUCT of a [100000, 64] array with a [64, 32] array over the extended reals: entry (r, c) is the sum
    over the 64 lanes of `a (r, k) · w (k, c)`. -/
def whole (a : (⟨S100000x64, .f32⟩ : BufTy).Contents (Elt Ideal)) (w : (⟨S64x32, .f32⟩ : BufTy).Contents (Elt Ideal)) :
    (⟨S100000x32, .f32⟩ : BufTy).Contents (Elt Ideal) :=
  fun i => ∑ k : Fin 64, a (rowAt i k) * w (colAt i k)

/-! ### One block's payload at an entry -/

theorem lhs_0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem rhs_0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem rhs_1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The block the body stores, at entry `j`: rounding the operands to bf16 is the identity on the extended reals and the
    accumulator is the zero splat, so the matrix unit's contraction is the plain sum over the 64 lanes of the
    loaded row block against the loaded weights. -/
theorem payload_apply (x0 : Vec Ideal S10000x64 .f32) (x1 : Vec Ideal S64x32 .f32) (j : S10000x32.Idx) :
    k1_pay1 (F := Ideal) x0 x1 j = ∑ k : Fin 64, x0 (rowIn j k) * x1 (colIn j k) := by
  unfold k1_pay1
  rw [shapeCast_self x0 shapeCasts_S10000x64_S10000x64]
  show FloatOps.matmul dot_S10000x64_S64x32_S10000x32_1_0_0_1_n_n none (truncf (F := Ideal) .bf16 x0 bitsLt_bf16_f32) (truncf (F := Ideal) .bf16 x1 bitsLt_bf16_f32) (constant (F := Ideal) S10000x32 .f32 0x00000000#32) j = _
  refine (Ideal.matmul_constant_zero_apply dot_S10000x64_S64x32_S10000x32_1_0_0_1_n_n none _ _ j).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = rowIn j k := funext fun a => Fin.ext (by
    match a with
    | ⟨0, _⟩ => exact lhs_0 _ _
    | ⟨1, _⟩ => exact (lhs_1 _ _).trans hk)
  have er : dot_S10000x64_S64x32_S10000x32_1_0_0_1_n_n.rhsIdx j ((ValueIdx.contrEquiv1 dot_S10000x64_S64x32_S10000x32_1_0_0_1_n_n 64 rfl rfl).symm k) = colIn j k := funext fun a => Fin.ext (by
    match a with
    | ⟨0, _⟩ => exact (rhs_0 _ _).trans hk
    | ⟨1, _⟩ => exact rhs_1 _ _)
  rw [el, er]
  rfl

/-! ### From the ten row blocks to the array -/

theorem zero_offsets : (![0, 0] : Fin 2 → Nat) = fun _ => 0 := funext fun a => by fin_cases a <;> rfl

/-- The index maps over the ten grid points: the row-block windows (input 0 and the output) sit at block `t` of axis 0 and
    block 0 of axis 1; the weights' window is the whole array at every point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- WHAT POINT `t` WRITES BACK is block `t` of the whole product of the two arrays the region finds: rows
    `10000·t … 10000·t + 9999` of the left array are exactly the rows the point's input block holds, and the weights' block is
    the whole weight array. -/
theorem flushed_eq (c : Dev nD) (t : Fin cfg1.N) :
    (dat1 V c).flushed 2 t = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x32) zero_offsets]
  obtain ⟨e0, e1, e2, e3, e4, e5⟩ := index_facts t
  funext j
  show k1_pay1 (iblk1 V c 0 t) (iblk1 V c 1 t) j = whole (V c main_v47) (V c main_arg4) (((cfg1.win 2).blk t).view.emb j)
  refine (payload_apply (iblk1 V c 0 t) (iblk1 V c 1 t) j).trans ?_
  unfold whole
  refine Finset.sum_congr rfl fun k _ => ?_
  have h0 : ((cfg1.win 0).blk t).view.emb (rowIn j k) = rowAt (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (colIn j k) = colAt (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  have hA : iblk1 V c 0 t (rowIn j k) = V c main_v47 (rowAt (((cfg1.win 2).blk t).view.emb j) k) := by
    show V c main_v47 (((cfg1.win 0).blk t).view.emb (rowIn j k)) = _
    rw [h0]
  have hB : iblk1 V c 1 t (colIn j k) = V c main_arg4 (colAt (((cfg1.win 2).blk t).view.emb j) k) := by
    show V c main_arg4 (((cfg1.win 1).blk t).view.emb (colIn j k)) = _
    rw [h1]
  rw [hA, hB]

/-- An index of the output array is in point `t`'s block iff each coordinate is in the block's range on its axis. -/
theorem mem_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- The ten blocks tile the output: row `r` lies in block `r / 10000`. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by omega⟩, rfl⟩
  obtain ⟨e0, e1, e2, e3, e4, e5⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- THE OUTPUT ARRAY after the region: the whole product of the two arrays the region finds. -/
theorem array_eq (c : Dev nD) : (dat1 V c).arrAt 2 cfg1.N = whole (V c main_v47) (V c main_arg4) :=
  (dat1 V c).arrAt_eq_of_cover 2 _ (fun t _ => flushed_eq V c t) covered

end

end Cert.KernelIdeal.Product1

end
-- ==== Proof.GcnSpec.lean ====
/-
  The graph convolution both programs compute, written once.

  Inputs: node features `x` [100000, 128], an edge list `e` [2, 1600000] of 32-bit node numbers, weights `w1` [128, 64],
  `w2` [64, 32] and biases `b1` [64], `b2` [32]. With the 100000 self loops appended the edge list has 1700000 entries:
  `srcOf e` (row 0 then 0 … 99999) and `dstOf e` (row 1 then 0 … 99999). A negative node number is wrapped by adding
  100000 before it indexes a gather (`wrapCol`). Then

    deg  = scatter-add of ones at dst                        (the degree of A + I)
    dinv = deg > 0 ? rsqrt deg : 0
    norm = dinv[src] · dinv[dst]                              (one factor per edge)
    layer h b = scatter-add at dst of (h[src] · norm) + b     (aggregate the transformed rows along the edges)
    out  = layer32 (relu (layer64 (x · w1) b1) · w2) b2

  Every stage is the host operation the two programs print, applied to the stages before it, for any float
  instance; the two matrix products are left as parameters (`h`), since they are where the two programs differ in
  spelling: one whole `dot_general` against ten row blocks on the matrix unit.
-/
import proofs.«178943_j10264971837865_2_alg».proof.ReferenceIdeal
import proofs.«178943_j10264971837865_2_alg».proof.Proof.Gen.ReferenceIdeal

noncomputable section

namespace Cert.Gcn

open Cert.ReferenceIdeal Cert.ReferenceIdeal.Gen Idealize.ShloMosaic

variable {F : FTy → Type} [FloatOps F]

/-- The edge list as the programs receive it, and a vector of 1700000 node numbers. -/
abbrev Edges (F : FTy → Type) : Type := (⟨S2x1600000, .i32⟩ : BufTy).Contents (Elt F)
abbrev Nodes (F : FTy → Type) : Type := (⟨S1700000, .i32⟩ : BufTy).Contents (Elt F)

/-- Sources: row 0 of the edge list, then the self loops 0 … 99999. -/
def srcOf (e : Edges F) : Nodes F :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Destinations: row 1 of the edge list, then the self loops. -/
def dstOf (e : Edges F) : Nodes F :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- Node numbers as a column of scatter indices. -/
def col (v : Nodes F) : (⟨S1700000x1, .i32⟩ : BufTy).Contents (Elt F) :=
  broadcastInDim S1700000x1 ![0] bcast_S1700000_S1700000x1_0 v

/-- Node numbers as a column of gather indices: a negative one has 100000 added first. -/
def wrapCol (v : Nodes F) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree of every node in the graph with self loops: ones added up at the destinations. -/
def deg (e : Edges F) : (⟨S100000, .f32⟩ : BufTy).Contents (Elt F) :=
  Host.scatterAdd scatter_S100000_S1700000x1_S1700000_n_0_0_1
    (broadcastInDim S100000 ![] bcast_S_S100000 (constant S_ .f32 0x00000000#32))
    (col (dstOf e))
    (broadcastInDim S1700000 ![] bcast_S_S1700000 (constant S_ .f32 0x3F800000#32))

/-- `deg > 0`, node by node. -/
def degPos (e : Edges F) : (⟨S100000, .i1⟩ : BufTy).Contents (Elt F) :=
  cmpf (F := F) .ogt (deg e) (broadcastInDim S100000 ![] bcast_S_S100000 (constant S_ .f32 0x00000000#32))

/-- `rsqrt deg`, node by node. -/
def degRsqrt (e : Edges F) : (⟨S100000, .f32⟩ : BufTy).Contents (Elt F) :=
  Host.rsqrt (deg e)

/-- The scalar zero the selection falls back to. -/
def zeroScalar : (⟨S_, .f32⟩ : BufTy).Contents (Elt F) := constant S_ .f32 0x00000000#32

/-- `deg > 0 ? rsqrt deg : 0`. -/
def dinv (e : Edges F) : (⟨S100000, .f32⟩ : BufTy).Contents (Elt F) :=
  select (degPos e) (degRsqrt e) (broadcastInDim S100000 ![] bcast_S_S100000 (id (zeroScalar (F := F))))

/-- The symmetric normalisation, one factor per edge: `dinv[src] · dinv[dst]`. -/
def norm (e : Edges F) : (⟨S1700000, .f32⟩ : BufTy).Contents (Elt F) :=
  mulf (Host.gather gather_S100000_S1700000x1_S1700000_n_0_n_n_0_1_1 (dinv e) (wrapCol (srcOf e)))
    (Host.gather gather_S100000_S1700000x1_S1700000_n_0_n_n_0_1_1 (dinv e) (wrapCol (dstOf e)))

/-- One aggregation at width 64: the rows of `h` gathered at the sources, scaled by `nrm`, added up at the destinations,
    plus the bias. -/
def layer64 (src dst : Nodes F) (nrm : (⟨S1700000, .f32⟩ : BufTy).Contents (Elt F))
    (h : (⟨S100000x64, .f32⟩ : BufTy).Contents (Elt F)) (b : (⟨S64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (col dst)
      (mulf (Host.gather gather_S100000x64_S1700000x1_S1700000x64_1_0_n_n_0_1_164 h (wrapCol src))
        (broadcastInDim S1700000x64 ![0, 1] bcast_S1700000x1_S1700000x64_0_1 (broadcastInDim S1700000x1 ![0] bcast_S1700000_S1700000x1_0 nrm))))
    (broadcastInDim S100000x64 ![0, 1] bcast_S1x64_S100000x64_0_1 (broadcastInDim S1x64 ![1] bcast_S64_S1x64_1 b))

/-- The rectifier: the maximum with zero. -/
def relu (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The same aggregation at width 32. -/
def layer32 (src dst : Nodes F) (nrm : (⟨S1700000, .f32⟩ : BufTy).Contents (Elt F))
    (h : (⟨S100000x32, .f32⟩ : BufTy).Contents (Elt F)) (b : (⟨S32, .f32⟩ : BufTy).Contents (Elt F)) :
    (⟨S100000x32, .f32⟩ : BufTy).Contents (Elt F) :=
  addf
    (Host.scatterAdd scatter_S100000x32_S1700000x1_S1700000x32_1_0_0_1
      (broadcastInDim S100000x32 ![] bcast_S_S100000x32 (constant S_ .f32 0x00000000#32))
      (col dst)
      (mulf (Host.gather gather_S100000x32_S1700000x1_S1700000x32_1_0_n_n_0_1_132 h (wrapCol src))
        (broadcastInDim S1700000x32 ![0, 1] bcast_S1700000x1_S1700000x32_0_1 (broadcastInDim S1700000x1 ![0] bcast_S1700000_S1700000x1_0 nrm))))
    (broadcastInDim S100000x32 ![0, 1] bcast_S1x32_S100000x32_0_1 (broadcastInDim S1x32 ![1] bcast_S32_S1x32_1 b))

end Cert.Gcn

end
-- ==== Proof.KernelFold.lean ====
/-
  What the kernel program's result buffer holds at the return, as a function of the six arguments.

  The boundary contents `W0 … W8` are a fold through the eight segments of the program. Read at the buffers the
  later segments use, the fold is:

    after the first three host stretches (`W3`):  src, dst and the normalisation `norm` at their buffers;
    after the first product (`W4`):             its output array is the whole product `x · w1`, everything else as before;
    after the next two stretches (`W6`):         `relu (layer64 (x · w1) b1)` at the second product's input array;
    after the second product (`W7`):            its output array is that times `w2`;
    at the return (`W8`):                       `layer32 (… · w2) b2` at the result buffer.

  A host stretch is read one operation at a time (each operation's result at its own buffer is its function of the
  operands' contents, and every other buffer keeps its contents); a region leaves every buffer that is not one of its
  three arrays untouched, and its output array at what the ten write-backs leave, which is the whole product.
-/
import proofs.«178943_j10264971837865_2_alg».proof.Proof.Gen.KernelIdeal.Frame
import proofs.«178943_j10264971837865_2_alg».proof.Proof.ProductBlocks
import proofs.«178943_j10264971837865_2_alg».proof.Proof.GcnSpec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first three host stretches: the edge list with self loops, and the normalisation

The normalisation is read one stretch at a time — the degrees' sign and reciprocal root after the first, their
selection `dinv` after the second, the two gathers and their product after the third — each stretch from the
contents the one before it leaves at the buffers it reads. -/

/-- `deg > 0` after the first stretch. -/
theorem W1_pos : W1 m ρ c (Proc.devRef .tc main_v12) = Cert.Gcn.degPos (F := Ideal) (m ((c : Thread nD τ).loc main_arg1)) := by
  show StableHlo.after hostOps0 (W0 m ρ c) (Proc.devRef .tc main_v12) = _
  after_results_simp <;> rfl
/-- `rsqrt deg` after the first stretch. -/
theorem W1_rsq : W1 m ρ c (Proc.devRef .tc main_v13) = Cert.Gcn.degRsqrt (F := Ideal) (m ((c : Thread nD τ).loc main_arg1)) := by
  show StableHlo.after hostOps0 (W0 m ρ c) (Proc.devRef .tc main_v13) = _
  after_results_simp <;> rfl
theorem W1_zero : W1 m ρ c (Proc.devRef .tc main_cst_2) = Cert.Gcn.zeroScalar (F := Ideal) := by
  show StableHlo.after hostOps0 (W0 m ρ c) (Proc.devRef .tc main_cst_2) = _
  after_results_simp <;> rfl
theorem W2_src : W2 m ρ c (Proc.devRef .tc main_v3) = Cert.Gcn.srcOf (F := Ideal) (m ((c : Thread nD τ).loc main_arg1)) := by
  show StableHlo.after hostOps0_1 (StableHlo.after hostOps0 (W0 m ρ c)) (Proc.devRef .tc main_v3) = _
  after_results
  rfl
theorem W2_dst : W2 m ρ c (Proc.devRef .tc main_v6) = Cert.Gcn.dstOf (F := Ideal) (m ((c : Thread nD τ).loc main_arg1)) := by
  show StableHlo.after hostOps0_1 (StableHlo.after hostOps0 (W0 m ρ c)) (Proc.devRef .tc main_v6) = _
  after_results
  rfl
/-- `dinv = deg > 0 ? rsqrt deg : 0` after the second stretch: the selection, of what the first stretch left. -/
theorem W2_dinv : W2 m ρ c (Proc.devRef .tc main_v14) = Cert.Gcn.dinv (F := Ideal) (m ((c : Thread nD τ).loc main_arg1)) := by
  have h0 := W1_pos m ρ c
  have h1 := W1_rsq m ρ c
  have h2 := W1_zero m ρ c
  show StableHlo.after hostOps0_1 (W1 m ρ c) (Proc.devRef .tc main_v14) = _
  generalize W1 m ρ c = V at h0 h1 h2 ⊢
  have key : StableHlo.after hostOps0_1 V (Proc.devRef .tc main_v14) = select (V (Proc.devRef .tc main_v12)) (V (Proc.devRef .tc main_v13)) (broadcastInDim S100000 ![] bcast_S_S100000 (id (V (Proc.devRef .tc main_cst_2)))) := by
    after_results_simp
    rfl
  rw [key, h0, h1, h2]
  rfl
/-- One factor per edge: `dinv[src] · dinv[dst]`, computed once. -/
theorem W3_norm : W3 m ρ c (Proc.devRef .tc main_v29) = Cert.Gcn.norm (F := Ideal) (m ((c : Thread nD τ).loc main_arg1)) := by
  have h0 := W2_dinv m ρ c
  have h1 := W2_src m ρ c
  have h2 := W2_dst m ρ c
  show StableHlo.after hostOps0_2 (W2 m ρ c) (Proc.devRef .tc main_v29) = _
  generalize W2 m ρ c = V at h0 h1 h2 ⊢
  after_results_simp
  rw [h0, h1, h2]
  rfl
/-- The sources: row 0 of the edge list, then the self loops. -/
theorem W3_src : W3 m ρ c (Proc.devRef .tc main_v3) = Cert.Gcn.srcOf (F := Ideal) (m ((c : Thread nD τ).loc main_arg1)) := by
  show StableHlo.after hostOps0_2 (StableHlo.after hostOps0_1 (StableHlo.after hostOps0 (W0 m ρ c))) (Proc.devRef .tc main_v3) = _
  after_results
  rfl
/-- The destinations: row 1 of the edge list, then the self loops. -/
theorem W3_dst : W3 m ρ c (Proc.devRef .tc main_v6) = Cert.Gcn.dstOf (F := Ideal) (m ((c : Thread nD τ).loc main_arg1)) := by
  show StableHlo.after hostOps0_2 (StableHlo.after hostOps0_1 (StableHlo.after hostOps0 (W0 m ρ c))) (Proc.devRef .tc main_v6) = _
  after_results
  rfl
theorem W3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## After the first product -/

/-- The first product's output array: the whole product of the features with the first weights. -/
theorem W4_h1 : W4 m ρ c (Proc.devRef .tc main_v30) = Product0.whole (m ((c : Thread nD τ).loc main_arg0)) (m ((c : Thread nD τ).loc main_arg2)) :=
  (W4_arr m ρ c 2).trans ((Product0.array_eq (V3 m ρ) c).trans
    (congrArg₂ Product0.whole (W3_main_arg0 m ρ c) (W3_main_arg2 m ρ c)))
theorem W4_src : W4 m ρ c (Proc.devRef .tc main_v3) = Cert.Gcn.srcOf (F := Ideal) (m ((c : Thread nD τ).loc main_arg1)) := (W4_of_ne m ρ c main_v3 (by decide)).trans (W3_src m ρ c)
theorem W4_dst : W4 m ρ c (Proc.devRef .tc main_v6) = Cert.Gcn.dstOf (F := Ideal) (m ((c : Thread nD τ).loc main_arg1)) := (W4_of_ne m ρ c main_v6 (by decide)).trans (W3_dst m ρ c)
theorem W4_norm : W4 m ρ c (Proc.devRef .tc main_v29) = Cert.Gcn.norm (F := Ideal) (m ((c : Thread nD τ).loc main_arg1)) := (W4_of_ne m ρ c main_v29 (by decide)).trans (W3_norm m ρ c)
theorem W4_main_arg3 : W4 m ρ c (Proc.devRef .tc main_arg3) = m ((c : Thread nD τ).loc main_arg3) := (W4_of_ne m ρ c main_arg3 (by decide)).trans (W3_main_arg3 m ρ c)
theorem W4_main_arg4 : W4 m ρ c (Proc.devRef .tc main_arg4) = m ((c : Thread nD τ).loc main_arg4) := (W4_of_ne m ρ c main_arg4 (by decide)).trans (W3_main_arg4 m ρ c)
theorem W4_main_arg5 : W4 m ρ c (Proc.devRef .tc main_arg5) = m ((c : Thread nD τ).loc main_arg5) := (W4_of_ne m ρ c main_arg5 (by decide)).trans (W3_main_arg5 m ρ c)

/-! ## After the next two host stretches: the first aggregation, then the rectifier -/

/-- The first aggregation: `layer64 (x · w1) b1`. -/
theorem W5_z1 : W5 m ρ c (Proc.devRef .tc main_v46) = Cert.Gcn.layer64 (Cert.Gcn.srcOf (F := Ideal) (m ((c : Thread nD τ).loc main_arg1))) (Cert.Gcn.dstOf (F := Ideal) (m ((c : Thread nD τ).loc main_arg1))) (Cert.Gcn.norm (F := Ideal) (m ((c : Thread nD τ).loc main_arg1))) (Product0.whole (m ((c : Thread nD τ).loc main_arg0)) (m ((c : Thread nD τ).loc main_arg2))) (m ((c : Thread nD τ).loc main_arg3)) := by
  have h0 := W4_src m ρ c
  have h1 := W4_dst m ρ c
  have h2 := W4_norm m ρ c
  have h3 := W4_h1 m ρ c
  have h4 := W4_main_arg3 m ρ c
  show StableHlo.after hostOps1 (W4 m ρ c) (Proc.devRef .tc main_v46) = _
  generalize W4 m ρ c = V at h0 h1 h2 h3 h4 ⊢
  after_results_simp
  rw [h0, h1, h2, h3, h4]
  rfl
/-- The second product's input array: `relu (layer64 (x · w1) b1)`. -/
theorem W6_a1 : W6 m ρ c (Proc.devRef .tc main_v47) = Cert.Gcn.relu (Cert.Gcn.layer64 (Cert.Gcn.srcOf (F := Ideal) (m ((c : Thread nD τ).loc main_arg1))) (Cert.Gcn.dstOf (F := Ideal) (m ((c : Thread nD τ).loc main_arg1))) (Cert.Gcn.norm (F := Ideal) (m ((c : Thread nD τ).loc main_arg1))) (Product0.whole (m ((c : Thread nD τ).loc main_arg0)) (m ((c : Thread nD τ).loc main_arg2))) (m ((c : Thread nD τ).loc main_arg3))) := by
  have h0 := W5_z1 m ρ c
  show StableHlo.after hostOps1_1 (W5 m ρ c) (Proc.devRef .tc main_v47) = _
  generalize W5 m ρ c = V at h0 ⊢
  have key : StableHlo.after hostOps1_1 V (Proc.devRef .tc main_v47) = maximumf (V (Proc.devRef .tc main_v46)) (broadcastInDim S100000x64 ![] bcast_S_S100000x64 (constant (F := Ideal) S_ .f32 0x00000000#32)) := by
    after_results_simp
    rfl
  rw [key, h0]
  rfl
theorem W6_src : W6 m ρ c (Proc.devRef .tc main_v3) = Cert.Gcn.srcOf (F := Ideal) (m ((c : Thread nD τ).loc main_arg1)) := by
  have h0 := W4_src m ρ c
  show StableHlo.after hostOps1_1 (StableHlo.after hostOps1 (W4 m ρ c)) (Proc.devRef .tc main_v3) = _
  generalize W4 m ρ c = V at h0 ⊢
  after_results_simp
  exact h0
theorem W6_dst : W6 m ρ c (Proc.devRef .tc main_v6) = Cert.Gcn.dstOf (F := Ideal) (m ((c : Thread nD τ).loc main_arg1)) := by
  have h0 := W4_dst m ρ c
  show StableHlo.after hostOps1_1 (StableHlo.after hostOps1 (W4 m ρ c)) (Proc.devRef .tc main_v6) = _
  generalize W4 m ρ c = V at h0 ⊢
  after_results_simp
  exact h0
theorem W6_norm : W6 m ρ c (Proc.devRef .tc main_v29) = Cert.Gcn.norm (F := Ideal) (m ((c : Thread nD τ).loc main_arg1)) := by
  have h0 := W4_norm m ρ c
  show StableHlo.after hostOps1_1 (StableHlo.after hostOps1 (W4 m ρ c)) (Proc.devRef .tc main_v29) = _
  generalize W4 m ρ c = V at h0 ⊢
  after_results_simp
  exact h0
theorem W6_main_arg4 : W6 m ρ c (Proc.devRef .tc main_arg4) = m ((c : Thread nD τ).loc main_arg4) := by
  have h0 := W4_main_arg4 m ρ c
  show StableHlo.after hostOps1_1 (StableHlo.after hostOps1 (W4 m ρ c)) (Proc.devRef .tc main_arg4) = _
  generalize W4 m ρ c = V at h0 ⊢
  after_results_simp
  exact h0
theorem W6_main_arg5 : W6 m ρ c (Proc.devRef .tc main_arg5) = m ((c : Thread nD τ).loc main_arg5) := by
  have h0 := W4_main_arg5 m ρ c
  show StableHlo.after hostOps1_1 (StableHlo.after hostOps1 (W4 m ρ c)) (Proc.devRef .tc main_arg5) = _
  generalize W4 m ρ c = V at h0 ⊢
  after_results_simp
  exact h0

/-! ## After the second product -/

/-- The second product's output array: the rectified hidden features times the second weights. -/
theorem W7_h2 : W7 m ρ c (Proc.devRef .tc main_v48) = Product1.whole (Cert.Gcn.relu (Cert.Gcn.layer64 (Cert.Gcn.srcOf (F := Ideal) (m ((c : Thread nD τ).loc main_arg1))) (Cert.Gcn.dstOf (F := Ideal) (m ((c : Thread nD τ).loc main_arg1))) (Cert.Gcn.norm (F := Ideal) (m ((c : Thread nD τ).loc main_arg1))) (Product0.whole (m ((c : Thread nD τ).loc main_arg0)) (m ((c : Thread nD τ).loc main_arg2))) (m ((c : Thread nD τ).loc main_arg3)))) (m ((c : Thread nD τ).loc main_arg4)) :=
  (W7_arr m ρ c 2).trans ((Product1.array_eq (V6 m ρ) c).trans
    (congrArg₂ Product1.whole (W6_a1 m ρ c) (W6_main_arg4 m ρ c)))
theorem W7_src : W7 m ρ c (Proc.devRef .tc main_v3) = Cert.Gcn.srcOf (F := Ideal) (m ((c : Thread nD τ).loc main_arg1)) := (W7_of_ne m ρ c main_v3 (by decide)).trans (W6_src m ρ c)
theorem W7_dst : W7 m ρ c (Proc.devRef .tc main_v6) = Cert.Gcn.dstOf (F := Ideal) (m ((c : Thread nD τ).loc main_arg1)) := (W7_of_ne m ρ c main_v6 (by decide)).trans (W6_dst m ρ c)
theorem W7_norm : W7 m ρ c (Proc.devRef .tc main_v29) = Cert.Gcn.norm (F := Ideal) (m ((c : Thread nD τ).loc main_arg1)) := (W7_of_ne m ρ c main_v29 (by decide)).trans (W6_norm m ρ c)
theorem W7_main_arg5 : W7 m ρ c (Proc.devRef .tc main_arg5) = m ((c : Thread nD τ).loc main_arg5) := (W7_of_ne m ρ c main_arg5 (by decide)).trans (W6_main_arg5 m ρ c)

/-! ## At the return -/

/-- THE RESULT: the second aggregation of the second product, plus the bias. -/
theorem W8_out : W8 m ρ c (Proc.devRef .tc main_v64) = Cert.Gcn.layer32 (Cert.Gcn.srcOf (F := Ideal) (m ((c : Thread nD τ).loc main_arg1))) (Cert.Gcn.dstOf (F := Ideal) (m ((c : Thread nD τ).loc main_arg1))) (Cert.Gcn.norm (F := Ideal) (m ((c : Thread nD τ).loc main_arg1))) (Product1.whole (Cert.Gcn.relu (Cert.Gcn.layer64 (Cert.Gcn.srcOf (F := Ideal) (m ((c : Thread nD τ).loc main_arg1))) (Cert.Gcn.dstOf (F := Ideal) (m ((c : Thread nD τ).loc main_arg1))) (Cert.Gcn.norm (F := Ideal) (m ((c : Thread nD τ).loc main_arg1))) (Product0.whole (m ((c : Thread nD τ).loc main_arg0)) (m ((c : Thread nD τ).loc main_arg2))) (m ((c : Thread nD τ).loc main_arg3)))) (m ((c : Thread nD τ).loc main_arg4))) (m ((c : Thread nD τ).loc main_arg5)) := by
  have h0 := W7_src m ρ c
  have h1 := W7_dst m ρ c
  have h2 := W7_norm m ρ c
  have h3 := W7_h2 m ρ c
  have h4 := W7_main_arg5 m ρ c
  show StableHlo.after hostOps2 (W7 m ρ c) (Proc.devRef .tc main_v64) = _
  generalize W7 m ρ c = V at h0 h1 h2 h3 h4 ⊢
  after_results_simp
  rw [h0, h1, h2, h3, h4]
  rfl

end Cert.KernelIdeal.Fold

end
-- ==== Proof.DotGeneralSum.lean ====
/-
  The law that joins the two programs: a whole `dot_general` is the product the ten row blocks assemble.

  The reference multiplies the feature array by the weight array in one host `dot_general` (contracting axis 1 of the
  left operand with axis 0 of the right one). Over the extended reals that operation is, entry by entry,
  Σₖ a(r, k) · w(k, c) — exactly the function the kernel's ten row blocks were shown to tile. No finiteness is needed:
  both sides are the same sum of the same products, term by term.
-/
import proofs.«178943_j10264971837865_2_alg».proof.ReferenceIdeal
import proofs.«178943_j10264971837865_2_alg».proof.Proof.Gen.ReferenceIdeal
import proofs.«178943_j10264971837865_2_alg».proof.Proof.ProductBlocks
import Idealize.ShloMosaic.Lib.ValueIdx
import Idealize.ShloMosaic.PureOps.Ideal.Laws

set_option maxRecDepth 16384

noncomputable section

open scoped BigOperators

namespace Cert.Gcn.Dot

open Cert.ReferenceIdeal Cert.ReferenceIdeal.Gen Idealize.ShloMosaic

/-! ## The first product: [100000, 128] × [128, 64] -/

theorem dot1_lhs_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dot1_lhs_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem dot1_rhs_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem dot1_rhs_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Over the extended reals the host's `dot_general` with one contracted axis of 128 lanes is, entry by entry, the sum over
    the lanes of the left operand's row against the right operand's column: the whole product. -/
theorem dot1_eq_whole (a : (⟨S100000x128, .f32⟩ : BufTy).Contents (Elt Ideal)) (w : (⟨S128x64, .f32⟩ : BufTy).Contents (Elt Ideal)) :
    Host.dotGeneral (F := Ideal) (φ₁ := .f32) (φ₂ := .f32) dot_S100000x128_S128x64_S100000x64_1_0_0_1_n_n none a w = Cert.KernelIdeal.Product0.whole a w := by
  funext i
  unfold Cert.KernelIdeal.Product0.whole
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = Cert.KernelIdeal.Product0.rowAt i k := funext fun a => Fin.ext (by
    match a with
    | ⟨0, _⟩ => exact dot1_lhs_0 _ _
    | ⟨1, _⟩ => exact (dot1_lhs_1 _ _).trans hk)
  have er : dot_S100000x128_S128x64_S100000x64_1_0_0_1_n_n.rhsIdx i ((ValueIdx.contrEquiv1 dot_S100000x128_S128x64_S100000x64_1_0_0_1_n_n 128 rfl rfl).symm k) = Cert.KernelIdeal.Product0.colAt i k := funext fun a => Fin.ext (by
    match a with
    | ⟨0, _⟩ => exact (dot1_rhs_0 _ _).trans hk
    | ⟨1, _⟩ => exact dot1_rhs_1 _ _)
  rw [el, er]

/-! ## The second product: [100000, 64] × [64, 32] -/

theorem dot2_lhs_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem dot2_lhs_1 (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem dot2_rhs_0 (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem dot2_rhs_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- Over the extended reals the host's `dot_general` with one contracted axis of 64 lanes is, entry by entry, the sum over
    the lanes of the left operand's row against the right operand's column: the whole product. -/
theorem dot2_eq_whole (a : (⟨S100000x64, .f32⟩ : BufTy).Contents (Elt Ideal)) (w : (⟨S64x32, .f32⟩ : BufTy).Contents (Elt Ideal)) :
    Host.dotGeneral (F := Ideal) (φ₁ := .f32) (φ₂ := .f32) dot_S100000x64_S64x32_S100000x32_1_0_0_1_n_n none a w = Cert.KernelIdeal.Product1.whole a w := by
  funext i
  unfold Cert.KernelIdeal.Product1.whole
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = Cert.KernelIdeal.Product1.rowAt i k := funext fun a => Fin.ext (by
    match a with
    | ⟨0, _⟩ => exact dot2_lhs_0 _ _
    | ⟨1, _⟩ => exact (dot2_lhs_1 _ _).trans hk)
  have er : dot_S100000x64_S64x32_S100000x32_1_0_0_1_n_n.rhsIdx i ((ValueIdx.contrEquiv1 dot_S100000x64_S64x32_S100000x32_1_0_0_1_n_n 64 rfl rfl).symm k) = Cert.KernelIdeal.Product1.colAt i k := funext fun a => Fin.ext (by
    match a with
    | ⟨0, _⟩ => exact (dot2_rhs_0 _ _).trans hk
    | ⟨1, _⟩ => exact dot2_rhs_1 _ _)
  rw [el, er]

end Cert.Gcn.Dot

end
-- ==== Proof.RefValue.lean ====
/-
  The reference's result is the specification.

  The reference program is one straight line of 116 host operations; its result, composed through them, is

    layer32 src dst norm (dot_general (relu (layer64 src dst norm (dot_general x w1) b1)) w2) b2

  with src, dst and norm the stages of the specification at the edge list — the reference computes the
  normalisation a second time for the second layer, from the same edge list by the same operations, so both copies
  are the one term `norm e`. Each whole `dot_general` is the row-by-column sum (the joining law), which gives the
  forward pass as ONE function `forward` of the six arguments: the function the kernel's result was read as.
-/
import proofs.«178943_j10264971837865_2_alg».proof.Proof.RefRun
import proofs.«178943_j10264971837865_2_alg».proof.Proof.GcnSpec
import proofs.«178943_j10264971837865_2_alg».proof.Proof.ProductBlocks
import proofs.«178943_j10264971837865_2_alg».proof.Proof.DotGeneralSum

set_option maxRecDepth 16384

noncomputable section

namespace Cert.Gcn

open Cert.ReferenceIdeal Idealize.ShloMosaic

/-- THE FORWARD PASS over the extended reals, as one function of the six arguments: two aggregations along the
    edges with self loops, each of a whole matrix product, the rectifier between them. -/
def forward (x : (⟨S100000x128, .f32⟩ : BufTy).Contents (Elt Ideal)) (e : Edges Ideal)
    (w1 : (⟨S128x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  layer32 (srcOf e) (dstOf e) (norm e)
    (Cert.KernelIdeal.Product1.whole (relu (layer64 (srcOf e) (dstOf e) (norm e) (Cert.KernelIdeal.Product0.whole x w1) b1)) w2) b2

end Cert.Gcn

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The reference's composed result, stage by stage: the specification's stages with each product a whole
    `dot_general` (the two terms are the same operations of the same operands). -/
theorem result_stages :
    ValueP.res_main_v87 (F := Ideal) m c
      = Cert.Gcn.layer32 (Cert.Gcn.srcOf (m ((c.tc : Thread nD τ).loc main_arg1))) (Cert.Gcn.dstOf (m ((c.tc : Thread nD τ).loc main_arg1))) (Cert.Gcn.norm (m ((c.tc : Thread nD τ).loc main_arg1)))
          (Host.dotGeneral (F := Ideal) (φ₁ := .f32) (φ₂ := .f32) dot_S100000x64_S64x32_S100000x32_1_0_0_1_n_n none
            (Cert.Gcn.relu (Cert.Gcn.layer64 (Cert.Gcn.srcOf (m ((c.tc : Thread nD τ).loc main_arg1))) (Cert.Gcn.dstOf (m ((c.tc : Thread nD τ).loc main_arg1))) (Cert.Gcn.norm (m ((c.tc : Thread nD τ).loc main_arg1)))
              (Host.dotGeneral (F := Ideal) (φ₁ := .f32) (φ₂ := .f32) dot_S100000x128_S128x64_S100000x64_1_0_0_1_n_n none (m ((c.tc : Thread nD τ).loc main_arg0)) (m ((c.tc : Thread nD τ).loc main_arg2)))
              (m ((c.tc : Thread nD τ).loc main_arg3))))
            (m ((c.tc : Thread nD τ).loc main_arg4)))
          (m ((c.tc : Thread nD τ).loc main_arg5)) := by
  unfold ValueP.res_main_v87
  rfl

/-- The reference's result is the forward pass of its arguments. -/
theorem result_eq :
    ValueP.res_main_v87 (F := Ideal) m c
      = Cert.Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_stages, Cert.Gcn.Dot.dot1_eq_whole, Cert.Gcn.Dot.dot2_eq_whole]
  rfl

end Cert.ReferenceIdeal.RefValue

end
-- ==== Proof.lean ====
/-
  Two graph-convolution layers over 100000 nodes: a kernel program whose two dense matrix products run on the matrix
  unit in ten row blocks each, against a reference that multiplies with one host `dot_general` per layer. Everything
  around the products — the edge list with self loops, the degrees, the symmetric normalisation, the gathers, the
  scatter-adds, the biases and the rectifier — is the same host operations in both programs (the kernel computes
  the normalisation once and uses it in both layers; the reference computes it twice from the same edge list).

  At the ideal instance rounding the operands to bf16 is the identity and a product accumulated from zero is the plain
  sum over the contracted lanes, so a row block of the kernel's product is the same rows of the reference's whole
  product, and the ten blocks tile it. Both programs therefore end with the one function `Cert.Gcn.forward` of the six
  arguments at their result buffer. The equality is term by term; no finiteness of the inputs is used.

    Proof/KernelRun.lean      the kernel program's run, its result read at the last boundary's contents
    Proof/ProductBlocks.lean  each product: one block's payload at an entry, and the ten blocks as the whole product
    Proof/GcnSpec.lean        the stages of the forward pass, written once
    Proof/KernelFold.lean     the boundary contents folded through the eight segments to the stages
    Proof/DotGeneralSum.lean  a whole `dot_general` is the row-by-column sum
    Proof/RefRun.lean         the reference's run
    Proof/RefValue.lean       the reference's result is the forward pass
-/
import proofs.«178943_j10264971837865_2_alg».proof.Defs
import proofs.«178943_j10264971837865_2_alg».proof.Proof.Gen.Kernel
import proofs.«178943_j10264971837865_2_alg».proof.Proof.Gen.Kernel.Frame
import proofs.«178943_j10264971837865_2_alg».proof.Proof.Gen.KernelIdeal
import proofs.«178943_j10264971837865_2_alg».proof.Proof.Gen.KernelIdeal.Frame
import proofs.«178943_j10264971837865_2_alg».proof.Proof.Gen.ReferenceIdeal
import proofs.«178943_j10264971837865_2_alg».proof.Proof.Gen.Pre_finite_inputs
import proofs.«178943_j10264971837865_2_alg».proof.Proof.KernelRun
import proofs.«178943_j10264971837865_2_alg».proof.Proof.KernelFold
import proofs.«178943_j10264971837865_2_alg».proof.Proof.RefRun
import proofs.«178943_j10264971837865_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the forward pass of those arguments at
    their result buffer: the kernel's by its run and the fold through its segments, the reference's by its run and
    the joining law for the two products. -/
theorem algebraic : Cert.algebraic_KernelIdeal_ReferenceIdeal := by
  intro m ρ m' ρ' _ hagree
  refine ⟨fun c => Cert.Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W8_out m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
